-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000 : Shape := ⟨1, ![1600000]⟩
abbrev S100000x64 : Shape := ⟨2, ![100000, 64]⟩
abbrev S64x64 : Shape := ⟨2, ![64, 64]⟩
abbrev S64 : Shape := ⟨1, ![64]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : IVec S1600000 32) (main_arg1 : IVec S1600000 32) (main_arg2 : FVec F S1600000 .f32) (main_arg3 : FVec F S100000x64 .f32) (main_arg4 : FVec F S64x64 .f32) (main_arg5 : FVec F S64 .f32) : IVec S_ 1 :=
  let main_v0 : FVec F S1600000 .f32 := Host.absf main_arg2
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S1600000 : Shape := ⟨1, ![1600000]⟩
abbrev S100000x64 : Shape := ⟨2, ![100000, 64]⟩
abbrev S64x64 : Shape := ⟨2, ![64, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S1x64 : Shape := ⟨2, ![1, 64]⟩
abbrev S2000x64 : Shape := ⟨2, ![2000, 64]⟩
abbrev S1600000x64 : Shape := ⟨2, ![1600000, 64]⟩
abbrev S8000x1 : Shape := ⟨2, ![8000, 1]⟩
abbrev S8000x64 : Shape := ⟨2, ![8000, 64]⟩

abbrev nBuf : Space → Nat
  | .hbm => 56
  | .vmem => 12
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S1600000, .f32⟩
  | .hbm, ⟨3, _⟩ => ⟨S100000x64, .f32⟩
  | .hbm, ⟨4, _⟩ => ⟨S64x64, .f32⟩
  | .hbm, ⟨5, _⟩ => ⟨S64, .f32⟩
  | .hbm, ⟨6, _⟩ => ⟨S_, .f32⟩
  | .hbm, ⟨7, _⟩ => ⟨S100000, .f32⟩
  | .hbm, ⟨8, _⟩ => ⟨S1600000x1, .i32⟩
  | .hbm, ⟨9, _⟩ => ⟨S100000, .f32⟩
  | .hbm, ⟨10, _⟩ => ⟨S_, .f32⟩
  | .hbm, ⟨11, _⟩ => ⟨S100000, .f32⟩
  | .hbm, ⟨12, _⟩ => ⟨S100000, .i1⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000, .f32⟩
  | .hbm, ⟨28, _⟩ => ⟨S1600000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S1x64, .f32⟩
  | .hbm, ⟨40, _⟩ => ⟨S100000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S1600000x1, .f32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S1x64, .f32⟩
  | .local _ .vmem, ⟨4, _⟩ => ⟨S2000x64, .f32⟩
  | .local _ .vmem, ⟨5, _⟩ => ⟨S2000x64, .f32⟩
  | .local _ .vmem, ⟨6, _⟩ => ⟨S8000x1, .f32⟩
  | .local _ .vmem, ⟨7, _⟩ => ⟨S8000x1, .f32⟩
  | .local _ .vmem, ⟨8, _⟩ => ⟨S8000x64, .f32⟩
  | .local _ .vmem, ⟨9, _⟩ => ⟨S8000x64, .f32⟩
  | .local _ .vmem, ⟨10, _⟩ => ⟨S8000x64, .f32⟩
  | .local _ .vmem, ⟨11, _⟩ => ⟨S8000x64, .f32⟩
  | _, _ => ⟨S1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  shapeCasts_S1600000_S1600000x1 : S1600000.ShapeCasts S1600000x1
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  broadcasts_S8000x1_S8000x64 : S8000x1.Broadcasts S8000x64
  bcast_S_S100000x64 : S_.BroadcastsInDim S100000x64 (![] : Fin 0 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S2000x64_S64x64_S2000x64_1_0_0_1_n_n_wf : DotDims.WF S2000x64 S64x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x1.size a ≤ S1600000x1.size a
  hwx1_0 : ∀ i : grid1.Coords, EltTy.bits .f32 = 32 ∨ (Rect.block (s := S1600000x1) S8000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S1600000x64.size a
  hwx1_1 : ∀ i : grid1.Coords, EltTy.bits .f32 = 32 ∨ (Rect.block (s := S1600000x64) S8000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S1600000x64.size a
  hwx1_2 : ∀ i : grid1.Coords, EltTy.bits .f32 = 32 ∨ (Rect.block (s := S1600000x64) S8000x64.size (cc1_transform_2 i) (hinb1_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg3) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v34) S8000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S8000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1600000 : Shape := ⟨1, ![1600000]⟩
abbrev S100000x64 : Shape := ⟨2, ![100000, 64]⟩
abbrev S64x64 : Shape := ⟨2, ![64, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S1x64 : Shape := ⟨2, ![1, 64]⟩
abbrev S1600000x64 : Shape := ⟨2, ![1600000, 64]⟩

abbrev nBuf : Space → Nat
  | .hbm => 59
  | .vmem => 0
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S1600000, .f32⟩
  | .hbm, ⟨3, _⟩ => ⟨S100000x64, .f32⟩
  | .hbm, ⟨4, _⟩ => ⟨S64x64, .f32⟩
  | .hbm, ⟨5, _⟩ => ⟨S64, .f32⟩
  | .hbm, ⟨6, _⟩ => ⟨S_, .f32⟩
  | .hbm, ⟨7, _⟩ => ⟨S100000, .f32⟩
  | .hbm, ⟨8, _⟩ => ⟨S1600000x1, .i32⟩
  | .hbm, ⟨9, _⟩ => ⟨S100000, .f32⟩
  | .hbm, ⟨10, _⟩ => ⟨S_, .f32⟩
  | .hbm, ⟨11, _⟩ => ⟨S100000, .f32⟩
  | .hbm, ⟨12, _⟩ => ⟨S100000, .i1⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000, .f32⟩
  | .hbm, ⟨28, _⟩ => ⟨S1600000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S1600000x1, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S1600000x64, .f32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | _, _ => ⟨S1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel's run with its RESULT named.

  The program is seven segments: three stretches of host operations (the degrees, their inverse square roots, the
  per-edge weights), the first kernel (the dense layer, block by block), one stretch (the gather of the neighbours'
  rows), the second kernel (each gathered row scaled by its edge's weight), and the closing scatter-add. The frame
  certificate follows the buffer contents through these segments as a fold `W0 … W7`: a stretch of host operations
  applies its operations' functions, a kernel replaces its output array by what its write-backs leave. Every buffer
  the thread holds at the return is at `W7`, so the result buffer holds `W7` read at it; that is all this module
  says. What `W7` is at that buffer, as a function of the arguments, is read off the fold in the other modules.
-/
import proofs.«123780_j32229434589218_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; at the return the result buffer
    holds the last boundary's contents `W7` read at it, and the six argument arrays hold what they were launched
    with. The thread ends holding every unscoped buffer at `W7`; reading that against the final state gives the
    result buffer directly and each argument through the fold back to the launch memory. -/
theorem run_result : θ_run defs (onTc (τ := τ) (main (F := F))) ⟨m, fun _ => 0, ρ⟩ (fun r => ∀ c : Dev nD,
      r.2.mem ((c.tc : Thread nD τ).loc main_v38) = W7 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v38 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Hand

end
-- ==== Proof.HostReads.lean ====
/-
  What the host operations around the two kernels compute, read off the fold of buffer contents `W0 … W7`.

  Before the first kernel the host computes the degrees (a scatter-add of the edge values by row), replaces the
  zero degrees by one, raises to the power −1/2, and multiplies each edge's value by the two factors gathered at its
  row and at its column: the per-edge weights. It also reshapes the bias to a row. None of this touches the node
  array or the weight matrix. Between the kernels it gathers the rows of the first kernel's output at the edges'
  columns and reshapes the weights to a column. After the second kernel it scatter-adds that kernel's output by row
  into zeros: the result.

  The reference performs the SAME host operations on the same arguments, so each value here is named by the
  reference's own stage for it (`val_main_v24`: the per-edge weights; `val_main_v35`: the column indices made
  non-negative and shaped for the gather; `val_main_v39`, `val_main_v40`: the zeros and the row indices of the final
  scatter-add) and is never opened: the two programs' terms agree operation by operation.
-/
import proofs.«123780_j32229434589218_2_alg».proof.Proof.Gen.KernelIdeal.Frame
import proofs.«123780_j32229434589218_2_alg».proof.Proof.Gen.ReferenceIdeal.Read
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## At the first kernel's entry -/

/-- The node array is as launched. -/
theorem entry0_nodes (c : Dev nD) : V3 m ρ c main_arg3 = m ((c : Thread nD τ).loc main_arg3) := by
  dsimp only [V3, W3, W2, W1, hostOps0, hostOps0_1, hostOps0_2]
  after_results_simp <;> rfl

/-- The weight matrix is as launched. -/
theorem entry0_weights (c : Dev nD) : V3 m ρ c main_arg4 = m ((c : Thread nD τ).loc main_arg4) := by
  dsimp only [V3, W3, W2, W1, hostOps0, hostOps0_1, hostOps0_2]
  after_results_simp <;> rfl

/-- The bias window's array is the bias reshaped to a row. -/
theorem entry0_bias (c : Dev nD) :
    V3 m ρ c main_v25 = shapeCast S1x64 (m ((c : Thread nD τ).loc main_arg5)) shapeCasts_S64_S1x64 := by
  dsimp only [V3, W3, W2, W1, hostOps0, hostOps0_1, hostOps0_2]
  after_results_simp <;> rfl

/-- The per-edge weights, computed before the first kernel, are the reference's. -/
theorem entry0_edge_weights (c : Dev nD) :
    W3 m ρ c (Proc.devRef .tc main_v24) = Cert.ReferenceIdeal.Read.val_main_v24 (F := F) (m ((c : Thread nD τ).loc main_arg0))
      (m ((c : Thread nD τ).loc main_arg1)) (m ((c : Thread nD τ).loc main_arg2)) := by
  dsimp only [W3, W2, W1, hostOps0, hostOps0_1, hostOps0_2]
  after_results_simp <;> rfl

/-- The row indices are as launched. -/
theorem entry0_rows (c : Dev nD) : W3 m ρ c (Proc.devRef .tc main_arg0) = m ((c : Thread nD τ).loc main_arg0) := by
  dsimp only [W3, W2, W1, hostOps0, hostOps0_1, hostOps0_2]
  after_results_simp <;> rfl

/-- The column indices are as launched. -/
theorem entry0_cols (c : Dev nD) : W3 m ρ c (Proc.devRef .tc main_arg1) = m ((c : Thread nD τ).loc main_arg1) := by
  dsimp only [W3, W2, W1, hostOps0, hostOps0_1, hostOps0_2]
  after_results_simp <;> rfl

/-! ## At the first kernel's exit: its output array replaced, everything else kept -/

theorem exit0_support (c : Dev nD) : W4 m ρ c (Proc.devRef .tc main_v26) = (dat0 (V3 m ρ) c).arrAt 3 cfg0.N :=
  W4_arr m ρ c 3

theorem exit0_edge_weights (c : Dev nD) :
    W4 m ρ c (Proc.devRef .tc main_v24) = Cert.ReferenceIdeal.Read.val_main_v24 (F := F) (m ((c : Thread nD τ).loc main_arg0))
      (m ((c : Thread nD τ).loc main_arg1)) (m ((c : Thread nD τ).loc main_arg2)) :=
  (W4_of_ne m ρ c main_v24 (by decide)).trans (entry0_edge_weights m ρ c)

theorem exit0_rows (c : Dev nD) : W4 m ρ c (Proc.devRef .tc main_arg0) = m ((c : Thread nD τ).loc main_arg0) :=
  (W4_of_ne m ρ c main_arg0 (by decide)).trans (entry0_rows m ρ c)

theorem exit0_cols (c : Dev nD) : W4 m ρ c (Proc.devRef .tc main_arg1) = m ((c : Thread nD τ).loc main_arg1) :=
  (W4_of_ne m ρ c main_arg1 (by decide)).trans (entry0_cols m ρ c)

/-! ## At the second kernel's entry -/

/-- The gathered rows: the first kernel's output gathered at the edges' columns. -/
theorem entry1_gathered (c : Dev nD) :
    V5 m ρ c main_v33 = Host.gather gather_S100000x64_S1600000x1_S1600000x64_1_0_n_n_0_1_164
      (W4 m ρ c (Proc.devRef .tc main_v26)) (Cert.ReferenceIdeal.Read.val_main_v35 (F := F) (W4 m ρ c (Proc.devRef .tc main_arg1))) := by
  dsimp only [V5, W5, hostOps1]
  after_results_simp <;> rfl

/-- The weights window's array is the per-edge weights reshaped to a column. -/
theorem entry1_weights (c : Dev nD) :
    V5 m ρ c main_v34 = shapeCast S1600000x1 (W4 m ρ c (Proc.devRef .tc main_v24)) shapeCasts_S1600000_S1600000x1 := by
  dsimp only [V5, W5, hostOps1]
  after_results_simp <;> rfl

theorem entry1_rows (c : Dev nD) : W5 m ρ c (Proc.devRef .tc main_arg0) = W4 m ρ c (Proc.devRef .tc main_arg0) := by
  dsimp only [W5, hostOps1]
  after_results_simp <;> rfl

/-! ## At the second kernel's exit, and the result -/

theorem exit1_scaled (c : Dev nD) : W6 m ρ c (Proc.devRef .tc main_v35) = (dat1 (V5 m ρ) c).arrAt 2 cfg1.N :=
  W6_arr m ρ c 2

theorem exit1_rows (c : Dev nD) : W6 m ρ c (Proc.devRef .tc main_arg0) = m ((c : Thread nD τ).loc main_arg0) :=
  (W6_of_ne m ρ c main_arg0 (by decide)).trans ((entry1_rows m ρ c).trans (exit0_rows m ρ c))

/-- The result buffer: the second kernel's output scatter-added by row into zeros. -/
theorem result_read (c : Dev nD) :
    W7 m ρ c (Proc.devRef .tc main_v38) = Host.scatterAdd scatter_S100000x64_S1600000x1_S1600000x64_1_0_0_1
      (Cert.ReferenceIdeal.Read.val_main_v39 (F := F)) (Cert.ReferenceIdeal.Read.val_main_v40 (F := F) (W6 m ρ c (Proc.devRef .tc main_arg0)))
      (W6 m ρ c (Proc.devRef .tc main_v35)) := by
  dsimp only [W7, hostOps2]
  after_results_simp <;> rfl

end Cert.KernelIdeal.Hand

end
-- ==== Proof.Spec.lean ====
/-
  The graph-convolution layer's two dense pieces, as functions of whole arrays, index by index, on the extended reals.

  `dense x w b` is the affine layer `x · w + b`: entry `(r, c)` is the sum over `k` of `x (r, k) · w (k, c)`, plus the
  bias's entry `c` (the bias is held as one row, `[1, 64]`).
  `scaled ν g` scales each row of `g` by that row's weight: entry `(e, c)` is `ν (e, 0) · g (e, c)` (the weights are held as
  one column, `[1600000, 1]`).

  Both programs compute exactly these two functions between the same host operations (the degrees and edge weights
  before, the gather between, the scatter-add after); neither function needs any law of arithmetic to be recognised
  in either program, only the reading of a matrix product as a sum and of a broadcast as a repeated row or column.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- The affine layer over the whole node array: `(x · w + b) (r, c) = ∑ k, x (r, k) · w (k, c) + b (0, c)`. -/
def dense (x : FVec Ideal ⟨2, ![100000, 64]⟩ .f32) (w : FVec Ideal ⟨2, ![64, 64]⟩ .f32) (b : FVec Ideal ⟨2, ![1, 64]⟩ .f32) :
    FVec Ideal ⟨2, ![100000, 64]⟩ .f32 :=
  fun i => (∑ k : Fin 64, x (ix2 (i 0 : Fin 100000) k) * w (ix2 k (i 1 : Fin 64))) + b (ix2 (0 : Fin 1) (i 1 : Fin 64))

/-- Each edge's gathered row scaled by the edge's weight: `(ν ⊙ g) (e, c) = ν (e, 0) · g (e, c)`. -/
def scaled (ν : FVec Ideal ⟨2, ![1600000, 1]⟩ .f32) (g : FVec Ideal ⟨2, ![1600000, 64]⟩ .f32) :
    FVec Ideal ⟨2, ![1600000, 64]⟩ .f32 :=
  fun i => ν (ix2 (i 0 : Fin 1600000) (0 : Fin 1)) * g i

end Cert.Gcn

end
-- ==== Proof.LibColumn.lean ====
/-
  Column layouts read at an index: the two forms a per-row weight takes on its way to a row-wise product.

  A vector `[a]` reshaped to a column `[a, 1]` keeps entry `e` at `(e, 0)`; a column `[a, 1]` broadcast along the rows of an
  `[a, b]` array repeats entry `(p, 0)` across row `p`. Both are stated over literal `Fin` coordinates, in the manner of
  the library's row forms (a vector to a row `[1, a]`, a row broadcast down the columns).
-/
import Idealize.ShloMosaic.Lib.Pipeline.Value
import Idealize.ShloMosaic.Lib.ValueIdx

namespace Cert.LibColumn

open Idealize.ShloMosaic Idealize.ShloMosaic.ValueIdx

variable {α : Type}

/-- An `[a]` vector cast to the column `[a, 1]` reads, at `(e, u)`, the operand at `e`, whatever the unit coordinate `u`. -/
theorem shapeCast_a_a1_apply {a : ℕ} (x : (⟨1, ![a]⟩ : Shape).Idx → α) (h : (⟨1, ![a]⟩ : Shape).ShapeCasts ⟨2, ![a, 1]⟩)
    (e : Fin a) (u : Fin 1) : shapeCast ⟨2, ![a, 1]⟩ x h (ix2 e u) = x (ix1 e) :=
  shapeCast_apply x h _ _ (by
    have hu : u.val = 0 := by omega
    rw [Shape.rowMajor_val_two, Shape.rowMajor_val_one]
    show e.val = e.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Payloads.lean ====
/-
  What each kernel body stores, read at one entry of its block.

  The first body loads a `[2000, 64]` block of rows, the whole `[64, 64]` weight matrix and the `[1, 64]` bias row,
  multiplies (after a change of float format on both operands, which on the extended reals is the identity) into a
  zero accumulator and adds the bias row broadcast down the block: entry `(p, q)` is `∑ k, x (p, k) · w (k, q) + b (0, q)`.
  The matrix product is read as that sum by re-indexing the contraction's one axis by `Fin 64`.

  The second body loads a `[8000, 1]` column of weights and an `[8000, 64]` block, broadcasts the column along the rows
  and multiplies: entry `(p, q)` is `ν (p, 0) · g (p, q)`.
-/
import proofs.«123780_j32229434589218_2_alg».proof.Proof.Gen.KernelIdeal.Skeleton
import proofs.«123780_j32229434589218_2_alg».proof.Proof.Spec
import proofs.«123780_j32229434589218_2_alg».proof.Proof.LibColumn
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.ValueIdx

/-- Every body access starts at the corner of its buffer. -/
theorem zero_offsets : (![0, 0] : Fin 2 → Nat) = fun _ => 0 := funext fun a => by fin_cases a <;> rfl

/-- The first body's matrix product: `[2000, 64] × [64, 64]`, the left operand's axis 1 contracted against the right's axis 0. -/
abbrev D₀ : DotDims S2000x64 S64x64 S2000x64 := dot_S2000x64_S64x64_S2000x64_1_0_0_1_n_n

/-- The left operand's row coordinate at output `j` is `j`'s row. -/
theorem dot_lhs_row (j : S2000x64.Idx) (κ : D₀.contr.Idx) : (D₀.lhsIdx j κ 0).val = (j 0).val := by
  unfold DotDims.lhsIdx
  rw [dif_neg (show ¬(0 : Fin S2000x64.rank) ∈ D₀.lhsBatch by decide), dif_pos (show (0 : Fin S2000x64.rank) ∈ D₀.lhsNonContracting by decide)]
  rfl

/-- The left operand's column coordinate is the contraction coordinate. -/
theorem dot_lhs_col (j : S2000x64.Idx) (κ : D₀.contr.Idx) : (D₀.lhsIdx j κ 1).val = (κ ⟨0, by decide⟩).val :=
  D₀.lhsIdx_val_of_single rfl j κ

/-- The right operand's row coordinate is the contraction coordinate. -/
theorem dot_rhs_row (j : S2000x64.Idx) (κ : D₀.contr.Idx) : (D₀.rhsIdx j κ 0).val = (κ ⟨0, by decide⟩).val :=
  D₀.rhsIdx_val_of_single rfl j κ

/-- The right operand's column coordinate at output `j` is `j`'s column. -/
theorem dot_rhs_col (j : S2000x64.Idx) (κ : D₀.contr.Idx) : (D₀.rhsIdx j κ 1).val = (j 1).val := by
  unfold DotDims.rhsIdx
  rw [dif_neg (show ¬(1 : Fin S64x64.rank) ∈ D₀.rhsBatch by decide), dif_pos (show (1 : Fin S64x64.rank) ∈ D₀.rhsNonContracting by decide)]
  rfl

/-- At output `(p, q)` and contraction coordinate `k` the product reads the left operand at `(p, k)`. -/
theorem dot_lhs (p : Fin 2000) (q : Fin 64) (κ : D₀.contr.Idx) (k : Fin 64) (hk : (κ ⟨0, by decide⟩).val = k.val) :
    D₀.lhsIdx (ix2 p q) κ = ix2 p k := funext fun ax => Fin.ext (by
  match ax with
  | ⟨0, _⟩ => exact dot_lhs_row (ix2 p q) κ
  | ⟨1, _⟩ => exact (dot_lhs_col (ix2 p q) κ).trans hk)

/-- At output `(p, q)` and contraction coordinate `k` the product reads the right operand at `(k, q)`. -/
theorem dot_rhs (p : Fin 2000) (q : Fin 64) (κ : D₀.contr.Idx) (k : Fin 64) (hk : (κ ⟨0, by decide⟩).val = k.val) :
    D₀.rhsIdx (ix2 p q) κ = ix2 k q := funext fun ax => Fin.ext (by
  match ax with
  | ⟨0, _⟩ => exact (dot_rhs_row (ix2 p q) κ).trans hk
  | ⟨1, _⟩ => exact dot_rhs_col (ix2 p q) κ)

/-- The first body's stored value at `(p, q)`: the row of `x` against the column of `w`, plus the bias. -/
theorem dense_payload (x : FVec Ideal S2000x64 .f32) (w : FVec Ideal S64x64 .f32) (b : FVec Ideal S1x64 .f32) (p : Fin 2000) (q : Fin 64) :
    k0_pay1 (F := Ideal) x w b (ix2 p q) = (∑ k : Fin 64, x (ix2 p k) * w (ix2 k q)) + b (ix2 (0 : Fin 1) q) := by
  unfold k0_pay1
  show (matmul D₀ none (truncf .bf16 x bitsLt_bf16_f32 : FVec Ideal S2000x64 .bf16) (truncf .bf16 w bitsLt_bf16_f32 : FVec Ideal S64x64 .bf16)
        (constant S2000x64 .f32 0x00000000#32 : FVec Ideal S2000x64 .f32) : FVec Ideal S2000x64 .f32) (ix2 p q)
      + (broadcastTo S2000x64 (shapeCast S1x64 b shapeCasts_S1x64_S1x64) broadcasts_S1x64_S2000x64 : FVec Ideal S2000x64 .f32) (ix2 p q) = _
  rw [shapeCast_self, broadcastTo_1b_ab_apply]
  refine congrArg (· + b (ix2 (0 : Fin 1) q)) ?_
  simp only [matmul]
  rw [Ideal.matmul_constant_zero_apply, ← Equiv.sum_comp (contrEquiv1 D₀ 64 rfl rfl).symm]
  refine Finset.sum_congr rfl fun k _ => ?_
  have hk := contrEquiv1_symm_val D₀ 64 rfl rfl k
  show x (D₀.lhsIdx (ix2 p q) ((contrEquiv1 D₀ 64 rfl rfl).symm k)) * w (D₀.rhsIdx (ix2 p q) ((contrEquiv1 D₀ 64 rfl rfl).symm k)) = _
  rw [dot_lhs p q _ k hk, dot_rhs p q _ k hk]

/-- The second body's stored value at `(p, q)`: the row's weight times the entry. -/
theorem scaled_payload (ν : FVec Ideal S8000x1 .f32) (g : FVec Ideal S8000x64 .f32) (p : Fin 8000) (q : Fin 64) :
    k1_pay1 (F := Ideal) ν g (ix2 p q) = ν (ix2 p (0 : Fin 1)) * g (ix2 p q) := by
  unfold k1_pay1
  show (broadcastTo S8000x64 (shapeCast S8000x1 ν shapeCasts_S8000x1_S8000x1) broadcasts_S8000x1_S8000x64 : FVec Ideal S8000x64 .f32) (ix2 p q)
      * (shapeCast S8000x64 g shapeCasts_S8000x64_S8000x64 : FVec Ideal S8000x64 .f32) (ix2 p q) = _
  rw [shapeCast_self, shapeCast_self, Cert.LibColumn.broadcastTo_a1_ab_apply]

end Cert.KernelIdeal.Hand

end
-- ==== Proof.SupportBlocks.lean ====
/-
  The first kernel's output array, whole.

  The grid has 50 points; at point `t` the rows window and the output window sit on rows `2000 t … 2000 t + 1999`, the
  weight matrix and the bias row are whole at every point. So what point `t` writes back is rows `2000 t …` of the
  affine layer `dense` of the three arrays as the kernel finds them, the 50 blocks tile the `[100000, 64]` array
  (row `r` is in block `r / 2000`), and the array ends holding `dense`.
  Stated for any contents `V` of the buffers at the kernel's entry; the run instantiates `V`.
-/
import proofs.«123780_j32229434589218_2_alg».proof.Proof.Gen.KernelIdeal.Frame
import proofs.«123780_j32229434589218_2_alg».proof.Proof.Payloads
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block indices of the four windows at every point: rows and output follow the point, weights and bias stay. -/
theorem support_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The rows window's block at point `t` is rows `2000 t …` of the node array. -/
theorem rows_block (c : Dev nD) (t : Fin cfg0.N) (y : S2000x64.Idx) (i : S100000x64.Idx)
    (h0 : (i 0).val = t.val * 2000 + (y 0).val) (h1 : (i 1).val = (y 1).val) :
    (iblk0 V c 0 t : Vec Ideal S2000x64 .f32) y = (V c main_arg3 : FVec Ideal S100000x64 .f32) i := by
  obtain ⟨e0, e1, -⟩ := support_index t
  unfold iblk0
  rw [View.read_apply]
  show V c main_arg3 _ = V c main_arg3 _
  refine congrArg (V c main_arg3) (funext fun a => Fin.ext ?_)
  match a with
  | ⟨0, _⟩ => show win0_0.index t (0 : Fin 2) * 2000 + 1 * (y 0).val = (i 0).val; rw [e0, h0]; omega
  | ⟨1, _⟩ => show win0_0.index t (1 : Fin 2) * 64 + 1 * (y 1).val = (i 1).val; rw [e1, h1]; omega

/-- The weights window's block at every point is the whole weight matrix. -/
theorem weights_block (c : Dev nD) (t : Fin cfg0.N) (y : S64x64.Idx) :
    (iblk0 V c 1 t : Vec Ideal S64x64 .f32) y = (V c main_arg4 : FVec Ideal S64x64 .f32) y := by
  obtain ⟨-, -, e0, e1, -⟩ := support_index t
  unfold iblk0
  rw [View.read_apply]
  show V c main_arg4 _ = V c main_arg4 _
  refine congrArg (V c main_arg4) (funext fun a => Fin.ext ?_)
  match a with
  | ⟨0, _⟩ => show win0_1.index t (0 : Fin 2) * 64 + 1 * (y 0).val = (y 0).val; rw [e0]; omega
  | ⟨1, _⟩ => show win0_1.index t (1 : Fin 2) * 64 + 1 * (y 1).val = (y 1).val; rw [e1]; omega

/-- The bias window's block at every point is the whole bias row. -/
theorem bias_block (c : Dev nD) (t : Fin cfg0.N) (y : S1x64.Idx) :
    (iblk0 V c 2 t : Vec Ideal S1x64 .f32) y = (V c main_v25 : FVec Ideal S1x64 .f32) y := by
  obtain ⟨-, -, -, -, e0, e1, -⟩ := support_index t
  unfold iblk0
  rw [View.read_apply]
  show V c main_v25 _ = V c main_v25 _
  refine congrArg (V c main_v25) (funext fun a => Fin.ext ?_)
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

/-- Where entry `(p, q)` of the output block at point `t` sits in the output array: row `2000 t + p`, column `q`. -/
theorem support_out_at (t : Fin cfg0.N) (p : Fin 2000) (q : Fin 64) :
    ((((cfg0.win 3).blk t).view.emb (ix2 p q)) 0).val = t.val * 2000 + p.val
    ∧ ((((cfg0.win 3).blk t).view.emb (ix2 p q)) 1).val = q.val := by
  obtain ⟨-, -, -, -, -, -, e0, e1⟩ := support_index t
  constructor
  · show win0_3.index t (0 : Fin 2) * 2000 + 1 * p.val = _; rw [e0]; omega
  · show win0_3.index t (1 : Fin 2) * 64 + 1 * q.val = _; rw [e1]; omega

/-- What point `t` writes back is block `t` of `dense` of the arrays as the kernel finds them. -/
theorem support_flushed (c : Dev nD) (t : Fin cfg0.N) :
    (dat0 V c).flushed 3 t = ((cfg0.win 3).blk t).view.read (Elt Ideal)
      (Cert.Gcn.dense (V c main_arg3) (V c main_arg4) (V c main_v25)) := by
  show (cfg0.win 3).cut (grid0.coords t) ((dat0 V c).after 3 t) = _
  rw [after0_3]
  unfold out0_3
  rw [View.canon_unit_zero zero_offsets]
  simp only [View.ld_unit_zero (S := S2000x64) zero_offsets, View.ld_unit_zero (S := S64x64) zero_offsets, View.ld_unit_zero (S := S1x64) zero_offsets]
  funext j
  obtain ⟨p, q, rfl⟩ : ∃ (p : Fin 2000) (q : Fin 64), j = ix2 p q := ⟨j 0, j 1, eq_ix2 j⟩
  obtain ⟨o0, o1⟩ := support_out_at t p q
  refine (dense_payload (iblk0 V c 0 t) (iblk0 V c 1 t) (iblk0 V c 2 t) p q).trans ?_
  show _ = Cert.Gcn.dense (V c main_arg3) (V c main_arg4) (V c main_v25) (((cfg0.win 3).blk t).view.emb (ix2 p q))
  unfold Cert.Gcn.dense
  refine congrArg₂ (· + ·) (Finset.sum_congr rfl fun k _ => congrArg₂ (· * ·) ?_ ?_) ?_
  · exact rows_block V c t (ix2 p k) _ o0 rfl
  · exact (weights_block V c t (ix2 k q)).trans (congrArg (V c main_arg4) (funext fun a => Fin.ext (by
      match a with
      | ⟨0, _⟩ => rfl
      | ⟨1, _⟩ => exact o1.symm)))
  · exact (bias_block V c t (ix2 (0 : Fin 1) q)).trans (congrArg (V c main_v25) (funext fun a => Fin.ext (by
      match a with
      | ⟨0, _⟩ => rfl
      | ⟨1, _⟩ => exact o1.symm)))

/-- An index of the output array is in point `t`'s block iff each coordinate is in the block's range on its axis. -/
theorem support_mem_blk (t : Fin cfg0.N) (i : S100000x64.Idx) :
    i ∈ ((cfg0.win 3).blk t).view.set ↔ ∀ a : Fin 2, win0_3.index t a * S2000x64.size a ≤ (i a).val ∧ (i a).val < win0_3.index t a * S2000x64.size a + S2000x64.size a := by
  show i ∈ ((View.whole main_v26).slice (win0_3.rect t)).set ↔ _
  rw [View.set_slice_whole, Rect.mem_set_unit]
  exact Iff.rfl

/-- The 50 blocks tile the array: row `r` is in the block of point `r / 2000`. -/
theorem support_cover (i : S100000x64.Idx) :
    ∃ t : Fin cfg0.N, (cfg0.win 3).flush t = true ∧ i ∈ ((cfg0.win 3).blk t).view.set := by
  have hN : grid0.N = 50 := N_0
  have hi0 : (i 0).val < 100000 := (i 0).isLt
  have hi1 : (i 1).val < 64 := (i 1).isLt
  let t : Fin cfg0.N := ⟨(i 0).val / 2000, by show (i 0).val / 2000 < grid0.N; rw [hN]; omega⟩
  obtain ⟨-, -, -, -, -, -, e0, e1⟩ := support_index t
  have ht : t.val = (i 0).val / 2000 := rfl
  refine ⟨t, flush0_3 t, ?_⟩
  rw [support_mem_blk]
  intro a
  match a with
  | ⟨0, _⟩ => show win0_3.index t (0 : Fin 2) * 2000 ≤ (i 0).val ∧ (i 0).val < win0_3.index t (0 : Fin 2) * 2000 + 2000; rw [e0, ht]; omega
  | ⟨1, _⟩ => show win0_3.index t (1 : Fin 2) * 64 ≤ (i 1).val ∧ (i 1).val < win0_3.index t (1 : Fin 2) * 64 + 64; rw [e1]; omega

/-- The first kernel's output array after its run: the affine layer of the rows, weights and bias it found. -/
theorem support_array (c : Dev nD) :
    (dat0 V c).arrAt 3 cfg0.N = Cert.Gcn.dense (V c main_arg3) (V c main_arg4) (V c main_v25) :=
  (dat0 V c).arrAt_eq_of_cover 3 _ (fun t _ => support_flushed V c t) support_cover

end Cert.KernelIdeal.Hand

end
-- ==== Proof.ScaleBlocks.lean ====
/-
  The second kernel's output array, whole.

  The grid has 200 points; at point `t` all three windows sit on rows `8000 t … 8000 t + 7999`: the weights column, the
  gathered rows, and the output. So what point `t` writes back is rows `8000 t …` of `scaled` of the two arrays as the
  kernel finds them, the 200 blocks tile the `[1600000, 64]` array (row `e` is in block `e / 8000`), and the array ends
  holding `scaled`. Stated for any contents `V` of the buffers at the kernel's entry.
-/
import proofs.«123780_j32229434589218_2_alg».proof.Proof.Gen.KernelIdeal.Frame
import proofs.«123780_j32229434589218_2_alg».proof.Proof.Payloads
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block indices of the three windows at every point: all follow the point along the rows. -/
theorem scale_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The weights window's block at point `t` is rows `8000 t …` of the weights column. -/
theorem weight_block (c : Dev nD) (t : Fin cfg1.N) (y : S8000x1.Idx) (i : S1600000x1.Idx)
    (h0 : (i 0).val = t.val * 8000 + (y 0).val) (h1 : (i 1).val = (y 1).val) :
    (iblk1 V c 0 t : Vec Ideal S8000x1 .f32) y = (V c main_v34 : FVec Ideal S1600000x1 .f32) i := by
  obtain ⟨e0, e1, -⟩ := scale_index t
  unfold iblk1
  rw [View.read_apply]
  show V c main_v34 _ = V c main_v34 _
  refine congrArg (V c main_v34) (funext fun a => Fin.ext ?_)
  match a with
  | ⟨0, _⟩ => show win1_0.index t (0 : Fin 2) * 8000 + 1 * (y 0).val = (i 0).val; rw [e0, h0]; omega
  | ⟨1, _⟩ => show win1_0.index t (1 : Fin 2) * 1 + 1 * (y 1).val = (i 1).val; rw [e1, h1]; omega

/-- The gathered-rows window's block at point `t` is rows `8000 t …` of the gathered array. -/
theorem gathered_block (c : Dev nD) (t : Fin cfg1.N) (y : S8000x64.Idx) (i : S1600000x64.Idx)
    (h0 : (i 0).val = t.val * 8000 + (y 0).val) (h1 : (i 1).val = (y 1).val) :
    (iblk1 V c 1 t : Vec Ideal S8000x64 .f32) y = (V c main_v33 : FVec Ideal S1600000x64 .f32) i := by
  obtain ⟨-, -, e0, e1, -⟩ := scale_index t
  unfold iblk1
  rw [View.read_apply]
  show V c main_v33 _ = V c main_v33 _
  refine congrArg (V c main_v33) (funext fun a => Fin.ext ?_)
  match a with
  | ⟨0, _⟩ => show win1_1.index t (0 : Fin 2) * 8000 + 1 * (y 0).val = (i 0).val; rw [e0, h0]; omega
  | ⟨1, _⟩ => show win1_1.index t (1 : Fin 2) * 64 + 1 * (y 1).val = (i 1).val; rw [e1, h1]; omega

/-- Where entry `(p, q)` of the output block at point `t` sits in the output array: row `8000 t + p`, column `q`. -/
theorem scale_out_at (t : Fin cfg1.N) (p : Fin 8000) (q : Fin 64) :
    ((((cfg1.win 2).blk t).view.emb (ix2 p q)) 0).val = t.val * 8000 + p.val
    ∧ ((((cfg1.win 2).blk t).view.emb (ix2 p q)) 1).val = q.val := by
  obtain ⟨-, -, -, -, e0, e1⟩ := scale_index t
  constructor
  · show win1_2.index t (0 : Fin 2) * 8000 + 1 * p.val = _; rw [e0]; omega
  · show win1_2.index t (1 : Fin 2) * 64 + 1 * q.val = _; rw [e1]; omega

/-- What point `t` writes back is block `t` of `scaled` of the arrays as the kernel finds them. -/
theorem scale_flushed (c : Dev nD) (t : Fin cfg1.N) :
    (dat1 V c).flushed 2 t = ((cfg1.win 2).blk t).view.read (Elt Ideal)
      (Cert.Gcn.scaled (V c main_v34) (V c main_v33)) := by
  show (cfg1.win 2).cut (grid1.coords t) ((dat1 V c).after 2 t) = _
  rw [after1_2]
  unfold out1_2
  rw [View.canon_unit_zero zero_offsets]
  simp only [View.ld_unit_zero (S := S8000x1) zero_offsets, View.ld_unit_zero (S := S8000x64) zero_offsets]
  funext j
  obtain ⟨p, q, rfl⟩ : ∃ (p : Fin 8000) (q : Fin 64), j = ix2 p q := ⟨j 0, j 1, eq_ix2 j⟩
  obtain ⟨o0, o1⟩ := scale_out_at t p q
  refine (scaled_payload (iblk1 V c 0 t) (iblk1 V c 1 t) p q).trans ?_
  show _ = Cert.Gcn.scaled (V c main_v34) (V c main_v33) (((cfg1.win 2).blk t).view.emb (ix2 p q))
  unfold Cert.Gcn.scaled
  refine congrArg₂ (· * ·) ?_ ?_
  · exact weight_block V c t (ix2 p (0 : Fin 1)) _ o0 rfl
  · exact gathered_block V c t (ix2 p q) _ o0 o1

/-- An index of the output array is in point `t`'s block iff each coordinate is in the block's range on its axis. -/
theorem scale_mem_blk (t : Fin cfg1.N) (i : S1600000x64.Idx) :
    i ∈ ((cfg1.win 2).blk t).view.set ↔ ∀ a : Fin 2, win1_2.index t a * S8000x64.size a ≤ (i a).val ∧ (i a).val < win1_2.index t a * S8000x64.size a + S8000x64.size a := by
  show i ∈ ((View.whole main_v35).slice (win1_2.rect t)).set ↔ _
  rw [View.set_slice_whole, Rect.mem_set_unit]
  exact Iff.rfl

/-- The 200 blocks tile the array: row `e` is in the block of point `e / 8000`. -/
theorem scale_cover (i : S1600000x64.Idx) :
    ∃ t : Fin cfg1.N, (cfg1.win 2).flush t = true ∧ i ∈ ((cfg1.win 2).blk t).view.set := by
  have hN : grid1.N = 200 := N_1
  have hi0 : (i 0).val < 1600000 := (i 0).isLt
  have hi1 : (i 1).val < 64 := (i 1).isLt
  let t : Fin cfg1.N := ⟨(i 0).val / 8000, by show (i 0).val / 8000 < grid1.N; rw [hN]; omega⟩
  obtain ⟨-, -, -, -, e0, e1⟩ := scale_index t
  have ht : t.val = (i 0).val / 8000 := rfl
  refine ⟨t, flush1_2 t, ?_⟩
  rw [scale_mem_blk]
  intro a
  match a with
  | ⟨0, _⟩ => show win1_2.index t (0 : Fin 2) * 8000 ≤ (i 0).val ∧ (i 0).val < win1_2.index t (0 : Fin 2) * 8000 + 8000; rw [e0, ht]; omega
  | ⟨1, _⟩ => show win1_2.index t (1 : Fin 2) * 64 ≤ (i 1).val ∧ (i 1).val < win1_2.index t (1 : Fin 2) * 64 + 64; rw [e1]; omega

/-- The second kernel's output array after its run: each gathered row scaled by its edge's weight. -/
theorem scale_array (c : Dev nD) :
    (dat1 V c).arrAt 2 cfg1.N = Cert.Gcn.scaled (V c main_v34) (V c main_v33) :=
  (dat1 V c).arrAt_eq_of_cover 2 _ (fun t _ => scale_flushed V c t) scale_cover

end Cert.KernelIdeal.Hand

end
-- ==== Proof.RefStages.lean ====
/-
  The reference's two dense stages are the layer's two functions.

  The reference computes the affine layer as a `dot_general` of the node array and the weights plus the bias broadcast
  twice (to a row, then down the rows), and the scaling as the edge weights broadcast twice (to a column, then along
  the rows) times the gathered rows. Read at an index these are `dense` and `scaled`: the product a sum over the
  contracted axis, each broadcast a repeated row or column. The bias reaches `dense` as a `[1, 64]` row and the weights
  reach `scaled` as a `[1600000, 1]` column because that is how the kernels hold them (a reshape on the host).
-/
import proofs.«123780_j32229434589218_2_alg».proof.Proof.Gen.ReferenceIdeal.Read
import proofs.«123780_j32229434589218_2_alg».proof.Proof.Spec
import proofs.«123780_j32229434589218_2_alg».proof.Proof.LibColumn
import Idealize.ShloMosaic.Lib.ValueLayout

noncomputable section

namespace Cert.ReferenceIdeal.Hand

open Cert.ReferenceIdeal Cert.ReferenceIdeal.Gen Cert.ReferenceIdeal.Read
open Idealize.ShloMosaic Idealize.ShloMosaic.ValueIdx

/-- The reference's affine stage is `dense` of the node array, the weights and the bias as a row. -/
theorem dense_stage (x3 : (⟨S100000x64, .f32⟩ : BufTy).Contents (Elt Ideal)) (x4 : (⟨S64x64, .f32⟩ : BufTy).Contents (Elt Ideal))
    (x5 : (⟨S64, .f32⟩ : BufTy).Contents (Elt Ideal)) (h : S64.ShapeCasts S1x64) :
    val_main_v28 (F := Ideal) x3 x4 x5 = Cert.Gcn.dense x3 x4 (shapeCast S1x64 x5 h) := by
  funext i
  rw [val_main_v28_apply, val_main_v25_apply, val_main_v27_apply, val_main_v26_apply]
  have el : ∀ k : Fin 64, lidx_main_v25 i k = ix2 (i 0 : Fin 100000) k := fun k =>
    funext fun a => Fin.ext (by match a with | ⟨0, _⟩ => rfl | ⟨1, _⟩ => rfl)
  have er : ∀ k : Fin 64, ridx_main_v25 i k = ix2 k (i 1 : Fin 64) := fun k =>
    funext fun a => Fin.ext (by match a with | ⟨0, _⟩ => rfl | ⟨1, _⟩ => rfl)
  have eb : idx_main_v26 (idx_main_v27 i) = ix1 (i 1 : Fin 64) :=
    funext fun a => Fin.ext (by match a with | ⟨0, _⟩ => rfl)
  show (∑ k : Fin 64, x3 (lidx_main_v25 i k) * x4 (ridx_main_v25 i k)) + x5 (idx_main_v26 (idx_main_v27 i))
    = (∑ k : Fin 64, x3 (ix2 (i 0 : Fin 100000) k) * x4 (ix2 k (i 1 : Fin 64)))
      + shapeCast S1x64 x5 h (ix2 (0 : Fin 1) (i 1 : Fin 64))
  refine congrArg₂ (· + ·) (Finset.sum_congr rfl fun k _ => ?_) ?_
  · rw [el k, er k]; rfl
  · exact ((shapeCast_a_1a_apply x5 h (0 : Fin 1) (i 1 : Fin 64)).trans (congrArg x5 eb.symm)).symm

/-- The reference's scaling stage is `scaled` of the edge weights as a column and the gathered rows. -/
theorem scaled_stage (x0 x1 : (⟨S1600000, .i32⟩ : BufTy).Contents (Elt Ideal)) (x2 : (⟨S1600000, .f32⟩ : BufTy).Contents (Elt Ideal))
    (x3 : (⟨S100000x64, .f32⟩ : BufTy).Contents (Elt Ideal)) (x4 : (⟨S64x64, .f32⟩ : BufTy).Contents (Elt Ideal))
    (x5 : (⟨S64, .f32⟩ : BufTy).Contents (Elt Ideal)) (h : S1600000.ShapeCasts S1600000x1) :
    val_main_v38 (F := Ideal) x0 x1 x2 x3 x4 x5
      = Cert.Gcn.scaled (shapeCast S1600000x1 (val_main_v24 (F := Ideal) x0 x1 x2) h) (val_main_v36 (F := Ideal) x1 x3 x4 x5) := by
  funext i
  rw [val_main_v38_apply, val_main_v37_apply, val_main_v29_apply]
  have ee : idx_main_v29 (idx_main_v37 i) = ix1 (i 0 : Fin 1600000) :=
    funext fun a => Fin.ext (by match a with | ⟨0, _⟩ => rfl)
  show val_main_v24 (F := Ideal) x0 x1 x2 (idx_main_v29 (idx_main_v37 i)) * val_main_v36 (F := Ideal) x1 x3 x4 x5 i
    = shapeCast S1600000x1 (val_main_v24 (F := Ideal) x0 x1 x2) h (ix2 (i 0 : Fin 1600000) (0 : Fin 1))
      * val_main_v36 (F := Ideal) x1 x3 x4 x5 i
  refine congrArg (· * val_main_v36 (F := Ideal) x1 x3 x4 x5 i) ?_
  exact ((Cert.LibColumn.shapeCast_a_a1_apply (val_main_v24 (F := Ideal) x0 x1 x2) h (i 0 : Fin 1600000) (0 : Fin 1)).trans
    (congrArg (val_main_v24 (F := Ideal) x0 x1 x2) ee.symm)).symm

end Cert.ReferenceIdeal.Hand

end
-- ==== Proof.KernelValue.lean ====
/-
  The kernel program's result as a function of its arguments: the reference's last stage.

  Reading the fold backwards from the result buffer: the closing scatter-add of the second kernel's array; that array
  is `scaled` of the weights column and the gathered rows (the second kernel, block by block); the gathered rows are
  the gather of the first kernel's array, which is `dense` of the node array, the weight matrix and the bias row
  (the first kernel, block by block); the weights column is the per-edge weights reshaped. The reference's stages
  for the same values are `scaled` and `dense` of the same arrays, between the same host operations with the same
  dimension records. So the result is the reference's `val_main_v41` of the six arguments.
-/
import proofs.«123780_j32229434589218_2_alg».proof.Proof.HostReads
import proofs.«123780_j32229434589218_2_alg».proof.Proof.SupportBlocks
import proofs.«123780_j32229434589218_2_alg».proof.Proof.ScaleBlocks
import proofs.«123780_j32229434589218_2_alg».proof.Proof.RefStages

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The two programs gather rows with the same dimension numbers. -/
theorem gather_rows_dims : Cert.KernelIdeal.gather_S100000x64_S1600000x1_S1600000x64_1_0_n_n_0_1_164
    = Cert.ReferenceIdeal.gather_S100000x64_S1600000x1_S1600000x64_1_0_n_n_0_1_164 := rfl

/-- The two programs scatter-add rows with the same dimension numbers. -/
theorem scatter_rows_dims : Cert.KernelIdeal.scatter_S100000x64_S1600000x1_S1600000x64_1_0_0_1
    = Cert.ReferenceIdeal.scatter_S100000x64_S1600000x1_S1600000x64_1_0_0_1 := rfl

/-- The result buffer at the return holds the reference's result stage of the six arguments as launched. -/
theorem result_value (c : Dev nD) :
    W7 m ρ c (Proc.devRef .tc main_v38) = Cert.ReferenceIdeal.Read.val_main_v41 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  rw [result_read, exit1_rows, exit1_scaled, scale_array (V5 m ρ) c, entry1_weights, entry1_gathered,
    exit0_edge_weights, exit0_cols, exit0_support, support_array (V3 m ρ) c, entry0_nodes, entry0_weights, entry0_bias]
  unfold Cert.ReferenceIdeal.Read.val_main_v41
  rw [Cert.ReferenceIdeal.Hand.scaled_stage _ _ _ _ _ _ shapeCasts_S1600000_S1600000x1]
  unfold Cert.ReferenceIdeal.Read.val_main_v36
  rw [Cert.ReferenceIdeal.Hand.dense_stage _ _ _ shapeCasts_S64_S1x64, gather_rows_dims, scatter_rows_dims]

end Cert.KernelIdeal.Hand

end
-- ==== Proof.lean ====
/-
  A graph-convolution layer, `out = D^(-1/2) A D^(-1/2) (x W + b)` over an edge list, as a kernel program against its
  plain reference, compared on the extended reals.

  Both programs compute the degrees by a scatter-add of the edge values, the inverse square roots (a zero degree
  read as one), the per-edge weights `ν e = a e · d (row e) · d (col e)`, the affine layer `s = x W + b`, the gathered
  rows `g e = s (col e)`, the scaled rows `ν e · g e` and their scatter-add by row. They differ in two places only:
  the kernel program computes `x W + b` in a kernel, 2000 rows at a time, as a matrix product into zeros (its operands
  passed through a narrower float format, which on the extended reals changes nothing) plus the bias row broadcast;
  and it computes `ν e · g e` in a second kernel, 8000 edges at a time, the weights held as a column. Entry by entry
  these are the reference's `dot_general` plus the broadcast bias, and its product with the broadcast weights: the
  same sums and the same products of the same numbers in the same order, so no law of arithmetic is used and the
  finiteness of the inputs is never opened.

  The modules: `Spec` states the two functions; `Payloads` reads each kernel body's stored value at an entry;
  `SupportBlocks` and `ScaleBlocks` assemble each kernel's output array from its blocks; `HostReads` reads the host
  operations around the kernels; `RefStages` reads the reference's two stages; `KernelValue` joins them; `KernelRun`
  is the kernel program's run with its result named. Here the five claims are assembled.
-/
import proofs.«123780_j32229434589218_2_alg».proof.Defs
import proofs.«123780_j32229434589218_2_alg».proof.Proof.Gen.Kernel
import proofs.«123780_j32229434589218_2_alg».proof.Proof.Gen.Kernel.Skeleton
import proofs.«123780_j32229434589218_2_alg».proof.Proof.Gen.Kernel.Launch
import proofs.«123780_j32229434589218_2_alg».proof.Proof.Gen.Kernel.Points
import proofs.«123780_j32229434589218_2_alg».proof.Proof.Gen.Kernel.Frame
import proofs.«123780_j32229434589218_2_alg».proof.Proof.Gen.KernelIdeal
import proofs.«123780_j32229434589218_2_alg».proof.Proof.Gen.KernelIdeal.Skeleton
import proofs.«123780_j32229434589218_2_alg».proof.Proof.Gen.KernelIdeal.Launch
import proofs.«123780_j32229434589218_2_alg».proof.Proof.Gen.KernelIdeal.Points
import proofs.«123780_j32229434589218_2_alg».proof.Proof.Gen.KernelIdeal.Frame
import proofs.«123780_j32229434589218_2_alg».proof.Proof.Gen.ReferenceIdeal
import proofs.«123780_j32229434589218_2_alg».proof.Proof.Gen.Pre_finite_inputs
import proofs.«123780_j32229434589218_2_alg».proof.Proof.Gen.ReferenceIdeal.Run
import proofs.«123780_j32229434589218_2_alg».proof.Proof.Gen.ReferenceIdeal.Read
import proofs.«123780_j32229434589218_2_alg».proof.Proof.KernelRun
import proofs.«123780_j32229434589218_2_alg».proof.Proof.KernelValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernel_ideal : Cert.frame_KernelIdeal := fun m ρ _ => Cert.KernelIdeal.Gen.frame m ρ

/-- The idealized reference runs and keeps its arguments: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- From memories agreeing on the six arguments both idealized programs end with the reference's result stage of
    those arguments: the kernel program by reading its fold of buffer contents, the reference by its own run. -/
theorem algebraic : Cert.algebraic_KernelIdeal_ReferenceIdeal := by
  intro m ρ m' ρ' _ hagree
  refine ⟨fun c => Cert.ReferenceIdeal.Read.val_main_v41 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Hand.result_value m ρ c), (h c).2⟩)
      (Cert.KernelIdeal.Hand.run_result (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v41_eq, (hagree c).1, (hagree c).2.1, (hagree c).2.2.1,
      (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
